-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8191 : Shape := ⟨1, ![8191]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8191 : S_.BroadcastsInDim S8191 (![] : Fin 0 → Fin S8191.rank)
  reducesTo_S8191_S_d0 : S8191.ReducesTo [0] S_

variable [Facts]

def fn {F : FTy → Type} [FloatOps F] (main_arg0 : FVec F S8192x4096 .f32) (main_arg1 : FVec F S8191 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8191 .f32 := Host.absf main_arg1
  let main_cst_0 : FVec F S_ .f32 := constant S_ .f32 0x7F800000#32
  let main_v5 : FVec F S8191 .f32 := broadcastInDim S8191 ![] bcast_S_S8191 main_cst_0
  let main_v6 : IVec S8191 1 := cmpf .olt main_v4 main_v5
  let main_c_1 : IVec S_ 1 := constantI S_ 1 1#1
  let main_v7 : IVec S_ 1 := (fun x v => Host.reduce IntOp.andi x v reducesTo_S8191_S_d0 h_S_) main_v6 main_c_1
  let main_v8 : IVec S_ 1 := andi main_v3 main_v7
  main_v8
-- ==== Kernel.lean ====
abbrev S8192x4096 : Shape := ⟨2, ![8192, 4096]⟩
abbrev S8191 : Shape := ⟨1, ![8191]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S4096x4096 : Shape := ⟨2, ![4096, 4096]⟩
abbrev S4096x4096x1 : Shape := ⟨3, ![4096, 4096, 1]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 24
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8191, .f32⟩
  | .hbm, ⟨2, _⟩ => ⟨S4096, .i32⟩
  | .hbm, ⟨3, _⟩ => ⟨S4096x1, .i32⟩
  | .hbm, ⟨4, _⟩ => ⟨S4096, .i32⟩
  | .hbm, ⟨5, _⟩ => ⟨S1x4096, .i32⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S_, .i32⟩
  | .hbm, ⟨13, _⟩ => ⟨S4096x4096, .i32⟩
  | .hbm, ⟨14, _⟩ => ⟨S4096x4096, .i1⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S4096x4096x1, .i32⟩
  | .hbm, ⟨20, _⟩ => ⟨S4096x4096, .f32⟩
  | .hbm, ⟨21, _⟩ => ⟨S4096x4096, .bf16⟩
  | .hbm, ⟨22, _⟩ => ⟨S8192x4096, .bf16⟩
  | .hbm, ⟨23, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  gather_S8191_S4096x4096x1_S4096x4096_n_0_n_n_0_2_1_wf : GatherDims.WF S8191 S4096x4096x1 S4096x4096 [] [0] [] [0] [] 2 ![1]
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def gather_S8191_S4096x4096x1_S4096x4096_n_0_n_n_0_2_1 : GatherDims S8191 S4096x4096x1 S4096x4096 where
  offsetDims := []
  collapsedSliceDims := [0]
  operandBatchingDims := []
  startIndicesBatchingDims := []
  startIndexMap := [0]
  indexVectorDim := 2
  sliceSizes := ![1]
  wf := gather_S8191_S4096x4096x1_S4096x4096_n_0_n_n_0_2_1_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v17) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8191 : Shape := ⟨1, ![8191]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8191, .f32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S_, .i32⟩
  | .hbm, ⟨19, _⟩ => ⟨S4096x4096, .i32⟩
  | .hbm, ⟨20, _⟩ => ⟨S4096x4096, .i32⟩
  | .hbm, ⟨21, _⟩ => ⟨S4096x4096, .i32⟩
  | .hbm, ⟨22, _⟩ => ⟨S4096x4096x1, .i32⟩
  | .hbm, ⟨23, _⟩ => ⟨S4096x4096, .f32⟩
  | .hbm, ⟨24, _⟩ => ⟨S4096x4096, .f32⟩
  | .hbm, ⟨25, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  transposes_S4096x4096_S4096x4096_1_0 : S4096x4096.Transposes [1, 0] S4096x4096
  gather_S8191_S4096x4096x1_S4096x4096_n_0_n_n_0_2_1_wf : GatherDims.WF S8191 S4096x4096x1 S4096x4096 [] [0] [] [0] [] 2 ![1]
  dot_S8192x4096_S4096x4096_S8192x4096_1_0_0_1_n_n_wf : DotDims.WF S8192x4096 S4096x4096 S8192x4096 [1] [0] [0] [1] [] []

variable [Facts₀]

def gather_S8191_S4096x4096x1_S4096x4096_n_0_n_n_0_2_1 : GatherDims S8191 S4096x4096x1 S4096x4096 where
  offsetDims := []
  collapsedSliceDims := [0]
  operandBatchingDims := []
  startIndicesBatchingDims := []
  startIndexMap := [0]
  indexVectorDim := 2
  sliceSizes := ![1]
  wf := gather_S8191_S4096x4096x1_S4096x4096_n_0_n_n_0_2_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibBlockSum.lean ====
/-
  Sums over an index range cut into consecutive blocks, in any additive commutative monoid — in particular the
  extended reals, where addition is commutative and associative although it does not cancel.

  * `sum_by_blocks`: a sum over `n * b` indices is the sum over the `n` blocks of the sums over each block's `b`
    indices (the index `j + b * i` is entry `j` of block `i`).
  * `sum_three_parts`: a sum over `a + b + c` indices is the sum of its three consecutive parts.
  * `running_total`: an accumulator started at `z` that adds `g k` at step `k` holds `z + ∑ k < n, g k` after
    `n` steps.
-/
import Mathlib.Algebra.BigOperators.Fin
import Mathlib.Algebra.BigOperators.Group.Finset.Basic

namespace BlockSum

open scoped BigOperators

variable {M : Type*} [AddCommMonoid M]

/-- A sum over `n * b` consecutive indices, block by block: index `j + b * i` is entry `j` of block `i`. -/
theorem sum_by_blocks (n b : ℕ) (f : Fin (n * b) → M) :
    ∑ k, f k = ∑ i : Fin n, ∑ j : Fin b, f (finProdFinEquiv (i, j)) := by
  rw [← Fintype.sum_prod_type']
  exact (Equiv.sum_comp finProdFinEquiv f).symm

/-- The position of entry `j` of block `i`. -/
theorem block_entry_val (n b : ℕ) (i : Fin n) (j : Fin b) :
    (finProdFinEquiv (i, j) : Fin (n * b)).val = j.val + b * i.val := rfl

/-- A sum over `a + b + c` consecutive indices is the sum of its three consecutive parts. -/
theorem sum_three_parts (a b c : ℕ) (f : Fin (a + b + c) → M) :
    ∑ k, f k = ∑ i : Fin a, f (Fin.castAdd c (Fin.castAdd b i))
      + ∑ i : Fin b, f (Fin.castAdd c (Fin.natAdd a i)) + ∑ i : Fin c, f (Fin.natAdd (a + b) i) := by
  rw [Fin.sum_univ_add, Fin.sum_univ_add]

/-- An accumulator started at `z` that adds `g k` at step `k` holds `z` plus the first `n` terms after `n` steps. -/
theorem running_total (z : M) (g : ℕ → M) (acc : ℕ → M) (h0 : acc 0 = z) (hs : ∀ k, acc (k + 1) = acc k + g k) (n : ℕ) :
    acc n = z + ∑ k ∈ Finset.range n, g k := by
  induction n with
  | zero => simp [h0]
  | succ n ih => rw [hs, ih, Finset.sum_range_succ, add_assoc]

end BlockSum
-- ==== Proof.Spec.lean ====
/-
  The function both programs compute, and the one law that joins their two spellings.

  With x an 8192 × 4096 matrix and v a vector of length 8191, the result is the 8192 × 4096 matrix
      out[b, n] = Σ_{k < 4096} x[b, k] · v[4095 + k − n],
  the product of x with the transposed Toeplitz matrix whose entry (k, n) is v at the diagonal number 4095 + k − n
  (always between 0 and 8190). The kernel reaches the sum in eight consecutive chunks of 512 terms, added one after the
  other onto zero; the reference takes all 4096 terms at once. On the extended reals addition is commutative and
  associative (it merely does not cancel), so the two groupings agree with no finiteness assumption.
-/
import Idealize.ShloMosaic.PureOps.Ideal
import Idealize.ShloMosaic.Lib.ValueIdx
import proofs.«121670_j76081050681596_2_alg».proof.Proof.LibBlockSum

noncomputable section

namespace Cert.Toeplitz

open Idealize.ShloMosaic Idealize.ShloMosaic.ValueIdx
open scoped BigOperators

/-- The diagonal of the Toeplitz matrix that entry (k, n) lies on: 4095 + k − n. -/
def diag (k n : Fin 4096) : Fin 8191 :=
  ⟨4095 + k.val - n.val, by have := k.isLt; have := n.isLt; omega⟩

/-- Entry (k, n) of the transposed Toeplitz matrix built from `v`. -/
def weight (v : (⟨1, ![8191]⟩ : Shape).Idx → EReal) : (⟨2, ![4096, 4096]⟩ : Shape).Idx → EReal :=
  fun i => v (ix1 (diag (i 0) (i 1)))

/-- The product of `x` with a 4096 × 4096 matrix `w`, entry by entry. -/
def matProduct (x : (⟨2, ![8192, 4096]⟩ : Shape).Idx → EReal) (w : (⟨2, ![4096, 4096]⟩ : Shape).Idx → EReal) :
    (⟨2, ![8192, 4096]⟩ : Shape).Idx → EReal :=
  fun i => ∑ k : Fin 4096, x (ix2 (i 0) k) * w (ix2 k (i 1))

/-- THE RESULT: x times the transposed Toeplitz matrix of v. -/
def result (x : (⟨2, ![8192, 4096]⟩ : Shape).Idx → EReal) (v : (⟨1, ![8191]⟩ : Shape).Idx → EReal) :
    (⟨2, ![8192, 4096]⟩ : Shape).Idx → EReal :=
  matProduct x (weight v)

/-- Term `j` of chunk `s` of the contraction axis: position 512·s + j (the chunk number read modulo 8, so that the
    position is defined for every natural `s`). -/
def chunkPos (s : ℕ) (j : Fin 512) : Fin 4096 :=
  ⟨512 * (s % 8) + j.val, by have := j.isLt; have := Nat.mod_lt s (show 0 < 8 by decide); omega⟩

/-- A sum over the 4096 positions is the sum over the eight chunks of the sums over each chunk's 512 positions. -/
theorem sum_by_chunks (f : Fin 4096 → EReal) :
    ∑ k : Fin 4096, f k = ∑ s ∈ Finset.range 8, ∑ j : Fin 512, f (chunkPos s j) := by
  rw [Finset.sum_range (fun s => ∑ j : Fin 512, f (chunkPos s j))]
  refine (BlockSum.sum_by_blocks 8 512 f).trans ?_
  refine Finset.sum_congr rfl fun i _ => Finset.sum_congr rfl fun j _ => congrArg f (Fin.ext ?_)
  show j.val + 512 * i.val = 512 * (i.val % 8) + j.val
  have := i.isLt
  omega

/-! ## The tiling

The grid's 128 points are numbered row tile first, then column tile, then chunk: point n works on row tile n / 32,
column tile (n / 8) mod 4 and chunk n mod 8. (Each is read modulo its range, so that it is defined for every natural n.) -/

/-- Row `p` of the row tile of point `n`: 2048·(n / 32) + p. -/
def rowPos (n : ℕ) (p : Fin 2048) : Fin 8192 :=
  ⟨2048 * (n / 32 % 4) + p.val, by have := p.isLt; have := Nat.mod_lt (n / 32) (show 0 < 4 by decide); omega⟩

/-- Column `q` of the column tile of point `n`: 1024·((n / 8) mod 4) + q. -/
def colPos (n : ℕ) (q : Fin 1024) : Fin 4096 :=
  ⟨1024 * (n / 8 % 4) + q.val, by have := q.isLt; have := Nat.mod_lt (n / 8) (show 0 < 4 by decide); omega⟩

/-- THE LAW. An entry of the result in the tile of a run of eight points starting at `b` (a multiple of 8) is zero plus
    the eight chunk sums of the run's points, each over its own 512 positions of the contraction axis. -/
theorem result_by_chunks (x : (⟨2, ![8192, 4096]⟩ : Shape).Idx → EReal) (w : (⟨2, ![4096, 4096]⟩ : Shape).Idx → EReal)
    (b : ℕ) (hb : b % 8 = 0) (p : Fin 2048) (q : Fin 1024) :
    matProduct x w (ix2 (rowPos b p) (colPos b q))
      = 0 + ∑ s ∈ Finset.range 8, ∑ j : Fin 512,
          x (ix2 (rowPos (b + s) p) (chunkPos (b + s) j)) * w (ix2 (chunkPos (b + s) j) (colPos (b + s) q)) := by
  rw [zero_add]
  show ∑ k : Fin 4096, x (ix2 (rowPos b p) k) * w (ix2 k (colPos b q)) = _
  rw [sum_by_chunks]
  refine Finset.sum_congr rfl fun s hs => Finset.sum_congr rfl fun j _ => ?_
  have hs8 : s < 8 := Finset.mem_range.mp hs
  have e1 : rowPos (b + s) p = rowPos b p := Fin.ext (by show 2048 * ((b + s) / 32 % 4) + p.val = 2048 * (b / 32 % 4) + p.val; omega)
  have e2 : colPos (b + s) q = colPos b q := Fin.ext (by show 1024 * ((b + s) / 8 % 4) + q.val = 1024 * (b / 8 % 4) + q.val; omega)
  have e3 : chunkPos (b + s) j = chunkPos s j := Fin.ext (by show 512 * ((b + s) % 8) + j.val = 512 * (s % 8) + j.val; omega)
  rw [e1, e2, e3]

end Cert.Toeplitz

end
-- ==== Proof.LibPlainMatmul.lean ====
/-
  A plain matrix product read at an entry.

  At the exact instance a `tpu.matmul` into the zero accumulator is, at each output index, the sum over the dot's
  contraction index of the products of the operands at the indices the dimension numbers name. For the plainest
  dimension numbers — an M × K matrix times a K × N matrix, one contracted axis, no batch axis — the operand indices at
  output (y, j) and contraction coordinate k are (y, k) and (k, j), and the contraction index is its one coordinate; so
  the entry is the familiar `Σₖ a[y, k] · w[k, j]` over `Fin K`. The four coordinate facts are taken as hypotheses:
  for a concrete record each is one line (two by the record's own single-axis lemmas, two by unfolding the index
  function at a decided membership).
-/
import Idealize.ShloMosaic.PureOps.Ideal.Laws
import Idealize.ShloMosaic.Lib.ValueIdx

noncomputable section

namespace Cert.EdgeScore.Lib

open Idealize.ShloMosaic Idealize.ShloMosaic.ValueIdx

/-- Entry (y, j) of an M × K by K × N product accumulated into zero is `Σₖ a (y, k) · w (k, j)`, `k` over `Fin K`:
    the contraction index re-read as its one coordinate (`hr`, `hs`: one contracted axis of extent K), the operand
    indices by their coordinates (`hl0`, `hl1`, `hr0`, `hr1`). Nothing of real arithmetic is used, so it holds
    with infinite entries too. -/
theorem matmul_zero_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 y k) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.EdgeScore.Lib

end
-- ==== Proof.Payload.lean ====
/-
  What one grid point's arithmetic does to the accumulator block, entry by entry, on the extended reals.

  The body's first payload is the zero block. Its second takes the accumulator block `acc` (2048 × 1024), the
  point's block `a` of the left matrix (2048 × 512) and its block `w` of the right matrix (512 × 1024) and returns
  `acc + a·w`: at entry (p, q) that is acc[p, q] + Σ_{k < 512} a[p, k] · w[k, q].
-/
import proofs.«121670_j76081050681596_2_alg».proof.Proof.Gen.KernelIdeal.Skeleton
import proofs.«121670_j76081050681596_2_alg».proof.Proof.LibPlainMatmul
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- The block the accumulator is reset to holds zero everywhere. -/
theorem zero_block_apply (y : S2048x1024.Idx) : k0_pay1 (F := Ideal) y = 0 := by
  unfold k0_pay1
  rw [shapeCast_self]
  exact Ideal.ofBits_zero_f32

/-- One step of the accumulation at entry (p, q): the accumulator's entry plus the 512-term inner product of row p of
    the left block with column q of the right block. -/
theorem step_apply (acc : Vec Ideal S2048x1024 .f32) (a : Vec Ideal S2048x512 .bf16) (w : Vec Ideal S512x1024 .bf16)
    (p : Fin 2048) (q : Fin 1024) :
    k0_pay2 acc a w (ix2 p q) = acc (ix2 p q) + ∑ k : Fin 512, a (ix2 p k) * w (ix2 k q) := by
  unfold k0_pay2
  simp only [shapeCast_self]
  rw [addf_apply]
  congr 1
  exact Cert.EdgeScore.Lib.matmul_zero_ix2_apply dot_S2048x512_S512x1024_S2048x1024_1_0_0_1_n_n rfl rfl
    (fun i q => by
      unfold DotDims.lhsIdx
      rw [dif_neg (show ¬(0 : Fin S2048x512.rank) ∈ dot_S2048x512_S512x1024_S2048x1024_1_0_0_1_n_n.lhsBatch by decide),
        dif_pos (show (0 : Fin S2048x512.rank) ∈ dot_S2048x512_S512x1024_S2048x1024_1_0_0_1_n_n.lhsNonContracting by decide)]
      rfl)
    (fun i q => dot_S2048x512_S512x1024_S2048x1024_1_0_0_1_n_n.lhsIdx_val_of_single rfl i q)
    (fun i q => dot_S2048x512_S512x1024_S2048x1024_1_0_0_1_n_n.rhsIdx_val_of_single rfl i q)
    (fun i q => by
      unfold DotDims.rhsIdx
      rw [dif_neg (show ¬(1 : Fin S512x1024.rank) ∈ dot_S2048x512_S512x1024_S2048x1024_1_0_0_1_n_n.rhsBatch by decide),
        dif_pos (show (1 : Fin S512x1024.rank) ∈ dot_S2048x512_S512x1024_S2048x1024_1_0_0_1_n_n.rhsNonContracting by decide)]
      rfl)
    none a w p q

end Cert.KernelIdeal.Body

end
-- ==== Proof.Pieces.lean ====
/-
  What each control case of the body leaves behind, as the body's own arithmetic.

  The body has three cases, told apart by the position k of the grid point along the contraction axis:
  the first chunk (k = 0) stores the zero block into the accumulator and then adds its product onto it; a middle chunk
  (0 < k < 7) adds its product onto what the previous point left; the last chunk (k = 7) does the same and copies the
  accumulator into the output block. In every case the accumulator ends at `step acc a w` — the second payload — where
  `acc` is the zero block in the first case and the previous point's accumulator otherwise; and in the last case the
  output block holds the same.
-/
import proofs.«121670_j76081050681596_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

/-- The offsets of a whole-block access are all zero. -/
theorem zero_offsets : (![0, 0] : Fin 2 → Nat) = fun _ => 0 := funext fun a => by fin_cases a <;> rfl

/-- First chunk: the accumulator ends at the zero block plus the point's product. -/
theorem scratch_first (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i)
    (x0 : Vec F S2048x512 .bf16) (x1 : Vec F S512x1024 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  rw [View.canon_cons_unit_zero (S := S2048x1024) zero_offsets]
  sl_unfold_words
  rw [View.readCov_unit_zero (S := S2048x1024) _ zero_offsets]
  simp only [View.readAt_eq_ld, harg3.read_unread, harg4.read_unread, View.ld_unit_zero (S := S2048x512) zero_offsets,
    View.ld_unit_zero (S := S512x1024) zero_offsets]

/-- Middle chunk: the accumulator ends at what the point before left plus the point's product. -/
theorem scratch_middle (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : ¬cond0_1 i)
    (x0 : Vec F S2048x512 .bf16) (x1 : Vec F S512x1024 .bf16) (xs0 : Vec F S2048x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero (S := S2048x1024) zero_offsets]
  simp only [View.readAt_eq_ld, harg3.read_unread, harg4.read_unread, harg6.read_unread,
    View.ld_unit_zero (S := S2048x512) zero_offsets, View.ld_unit_zero (S := S512x1024) zero_offsets,
    View.ld_unit_zero (S := S2048x1024) zero_offsets]

/-- Last chunk: the accumulator ends at what the point before left plus the point's product; -/
theorem scratch_last (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .bf16) (x1 : Vec F S512x1024 .bf16) (xs0 : Vec F S2048x1024 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S2048x1024) zero_offsets]
  simp only [View.readAt_eq_ld, harg3.read_unread, harg4.read_unread, harg6.read_unread,
    View.ld_unit_zero (S := S2048x512) zero_offsets, View.ld_unit_zero (S := S512x1024) zero_offsets,
    View.ld_unit_zero (S := S2048x1024) zero_offsets]

/-- and the output block is a copy of it. -/
theorem output_last (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .bf16) (x1 : Vec F S512x1024 .bf16) (xs0 : Vec F S2048x1024 .f32) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  rw [View.canon_unit_zero (S := S2048x1024) zero_offsets]
  sl_unfold_words
  rw [View.readCov_unit_zero (S := S2048x1024) _ zero_offsets]
  simp only [View.readAt_eq_ld, harg3.read_unread, harg4.read_unread, harg6.read_unread,
    View.ld_unit_zero (S := S2048x512) zero_offsets, View.ld_unit_zero (S := S512x1024) zero_offsets,
    View.ld_unit_zero (S := S2048x1024) zero_offsets]

end Cert.KernelIdeal.Pieces

end
-- ==== Proof.Words.lean ====
/-
  The 32-bit arithmetic behind the position 4095 + k − n.

  The host forms (4095 + k) − n in 32-bit words. With k, n below 4096 nothing wraps: the result is the word of the natural
  number 4095 + k − n, which lies between 0 and 8190, so that read as a signed integer it is that number again (in
  particular it is not negative).
-/
import Mathlib.Data.BitVec
import Mathlib.Tactic.NormNum

namespace Cert.Toeplitz.Words

/-- The word computed as (4095 + k) − n is the word of the number 4095 + k − n. -/
theorem diff_word (k n : ℕ) (hk : k < 4096) (hn : n < 4096) :
    (4095#32 + BitVec.ofNat 32 k) - BitVec.ofNat 32 n = BitVec.ofNat 32 (4095 + k - n) := by
  apply BitVec.eq_of_toNat_eq
  rw [BitVec.toNat_sub, BitVec.toNat_add, BitVec.toNat_ofNat, BitVec.toNat_ofNat, BitVec.toNat_ofNat, BitVec.toNat_ofNat]
  norm_num
  omega

/-- A word of a number below 8191, read signed, is that number. -/
theorem toInt_small (d : ℕ) (h : d < 8191) : (BitVec.ofNat 32 d).toInt = (d : Int) := by
  rw [BitVec.toInt_eq_toNat_cond, BitVec.toNat_ofNat]
  have e : d % 2 ^ 32 = d := Nat.mod_eq_of_lt (by norm_num; omega)
  rw [e, if_pos (by norm_num; omega)]

/-- Such a word is not negative. -/
theorem not_slt_zero (d : ℕ) (h : d < 8191) : (BitVec.ofNat 32 d).slt 0#32 = false := by
  unfold BitVec.slt
  rw [toInt_small d h]
  simp

end Cert.Toeplitz.Words
-- ==== Proof.HostPrefix.lean ====
/-
  What the two input windows' arrays hold when the region starts.

  Before the kernel is launched the host casts x to the narrow format — the identity on the extended reals — and
  builds the transposed Toeplitz matrix: at (k, n) it forms the integer 4095 + k − n from two counters, adds 8191 to it
  if it were negative (it never is: 0 ≤ 4095 + k − n ≤ 8190), reads v at that position, and casts the result. So the
  left window's array is x itself, and the right window's array at (k, n) is v at the diagonal 4095 + k − n.
-/
import proofs.«121670_j76081050681596_2_alg».proof.Proof.Gen.KernelIdeal.Frame.Runs
import proofs.«121670_j76081050681596_2_alg».proof.Proof.Spec
import proofs.«121670_j76081050681596_2_alg».proof.Proof.Words
import Idealize.ShloMosaic.Lib.Pipeline.Value
import Idealize.ShloMosaic.Lib.ValueIdx
import Idealize.ShloMosaic.Lib.StableHlo.Run

noncomputable section

namespace Cert.KernelIdeal.Host

open Cert.KernelIdeal Cert.KernelIdeal.Gen Idealize.ShloMosaic Idealize.ShloMosaic.ValueIdx Idealize.ShloMosaic.TcCoe
open Idealize.SL.Sem Idealize.ShloMosaic.StableHlo

/-- The column of integers 4095 + k. -/
def colWords : IVec S4096x1 32 :=
  addi (broadcastInDim S4096x1 ![] bcast_S_S4096x1 (constantI S_ 32 4095#32))
    (broadcastInDim S4096x1 ![0] bcast_S4096_S4096x1_0 (iotaInDim S4096 32 0))

/-- The row of integers n. -/
def rowWords : IVec S1x4096 32 := broadcastInDim S1x4096 ![1] bcast_S4096_S1x4096_1 (iotaInDim S4096 32 0)

/-- The integer 4095 + k − n at every (k, n), as the host computes it: the column less the row. -/
def diffWords : IVec S4096x4096 32 :=
  subi (broadcastInDim S4096x4096 ![0, 1] bcast_S4096x1_S4096x4096_0_1 colWords)
    (broadcastInDim S4096x4096 ![0, 1] bcast_S1x4096_S4096x4096_0_1 rowWords)

/-- The position read: the integer, moved up by 8191 where it is negative. -/
def startWords : IVec S4096x4096 32 :=
  select (cmpi .slt diffWords (broadcastInDim S4096x4096 ![] bcast_S_S4096x4096 (constantI S_ 32 0#32)))
    (addi diffWords (broadcastInDim S4096x4096 ![] bcast_S_S4096x4096 (constantI S_ 32 8191#32))) diffWords

variable (m : (ℓ : Loc nD τ sig) → Buf (Elt Ideal) ℓ)

/-- The left window's array is the cast of x. -/
theorem left_array (c : Dev nD) :
    V m c main_v17
      = (truncf .bf16 (m ((c.tc : Thread nD τ).loc main_arg0) : FVec Ideal S8192x4096 .f32) bitsLt_bf16_f32 : FVec Ideal S8192x4096 .bf16) := by
  dsimp only [V, hostOps0]
  after_results <;> rfl

set_option maxHeartbeats 2000000 in
/-- The right window's array is the cast of v read at the positions above. -/
theorem right_array (c : Dev nD) :
    V m c main_v16
      = (truncf .bf16 (Host.gather gather_S8191_S4096x4096x1_S4096x4096_n_0_n_n_0_2_1 (m ((c.tc : Thread nD τ).loc main_arg1) : FVec Ideal S8191 .f32)
          (broadcastInDim S4096x4096x1 ![0, 1] bcast_S4096x4096_S4096x4096x1_0_1 startWords) : FVec Ideal S4096x4096 .f32) bitsLt_bf16_f32 : FVec Ideal S4096x4096 .bf16) := by
  unfold startWords diffWords colWords rowWords
  dsimp only [V, hostOps0]
  after_results <;> rfl

/-- The column at k is the word 4095 + k. -/
theorem colWords_apply (k : Fin 4096) : colWords (ix2 k (0 : Fin 1)) = 4095#32 + BitVec.ofNat 32 k.val := by
  have e : colWords (ix2 k (0 : Fin 1))
      = IntOp.addi (broadcastInDim S4096x1 ![] bcast_S_S4096x1 (constantI S_ 32 4095#32) (ix2 k (0 : Fin 1)))
          (broadcastInDim S4096x1 ![0] bcast_S4096_S4096x1_0 (iotaInDim S4096 32 0) (ix2 k (0 : Fin 1))) := rfl
  rw [e, broadcastInDim_apply _ bcast_S_S4096x1 _ (ix2 k (0 : Fin 1)) ix0 (fun a => a.elim0),
    broadcastInDim_apply _ bcast_S4096_S4096x1_0 _ (ix2 k (0 : Fin 1)) (ix1 k) (fun a => match a with
      | ⟨0, _⟩ => by show k.val = if (4096 : Nat) = 1 then 0 else k.val; rw [if_neg (by decide)])]
  rfl

/-- The row at n is the word n. -/
theorem rowWords_apply (n : Fin 4096) : rowWords (ix2 (0 : Fin 1) n) = BitVec.ofNat 32 n.val := by
  unfold rowWords
  rw [broadcastInDim_apply _ bcast_S4096_S1x4096_1 _ (ix2 (0 : Fin 1) n) (ix1 n) (fun a => match a with
      | ⟨0, _⟩ => by show n.val = if (4096 : Nat) = 1 then 0 else n.val; rw [if_neg (by decide)])]
  rfl

/-- The integer at (k, n) is the word of 4095 + k − n. -/
theorem diffWords_apply (k n : Fin 4096) : diffWords (ix2 k n) = BitVec.ofNat 32 (4095 + k.val - n.val) := by
  have e : diffWords (ix2 k n)
      = IntOp.subi (broadcastInDim S4096x4096 ![0, 1] bcast_S4096x1_S4096x4096_0_1 colWords (ix2 k n))
          (broadcastInDim S4096x4096 ![0, 1] bcast_S1x4096_S4096x4096_0_1 rowWords (ix2 k n)) := rfl
  rw [e, broadcastInDim_apply _ bcast_S4096x1_S4096x4096_0_1 _ (ix2 k n) (ix2 k (0 : Fin 1)) (fun a => match a with
      | ⟨0, _⟩ => by show k.val = if (4096 : Nat) = 1 then 0 else k.val; rw [if_neg (by decide)]
      | ⟨1, _⟩ => by show 0 = if (1 : Nat) = 1 then 0 else n.val; rw [if_pos rfl]),
    broadcastInDim_apply _ bcast_S1x4096_S4096x4096_0_1 _ (ix2 k n) (ix2 (0 : Fin 1) n) (fun a => match a with
      | ⟨0, _⟩ => by show 0 = if (1 : Nat) = 1 then 0 else k.val; rw [if_pos rfl]
      | ⟨1, _⟩ => by show n.val = if (4096 : Nat) = 1 then 0 else n.val; rw [if_neg (by decide)]),
    colWords_apply, rowWords_apply]
  exact Cert.Toeplitz.Words.diff_word k.val n.val k.isLt n.isLt

/-- It is never negative, so the position read is the integer itself. -/
theorem startWords_apply (k n : Fin 4096) : startWords (ix2 k n) = BitVec.ofNat 32 (4095 + k.val - n.val) := by
  have hd : 4095 + k.val - n.val < 8191 := by have := k.isLt; have := n.isLt; omega
  have e : startWords (ix2 k n)
      = Scalar.select (IntOp.cmpi .slt (diffWords (ix2 k n))
            (broadcastInDim S4096x4096 ![] bcast_S_S4096x4096 (constantI S_ 32 0#32) (ix2 k n)))
          (IntOp.addi (diffWords (ix2 k n))
            (broadcastInDim S4096x4096 ![] bcast_S_S4096x4096 (constantI S_ 32 8191#32) (ix2 k n)))
          (diffWords (ix2 k n)) := rfl
  rw [e, diffWords_apply, broadcastInDim_apply _ bcast_S_S4096x4096 (constantI S_ 32 0#32) (ix2 k n) ix0 (fun a => a.elim0)]
  have hneg : IntOp.cmpi .slt (BitVec.ofNat 32 (4095 + k.val - n.val)) (constantI S_ 32 0#32 ix0) = 0#1 := by
    show BitVec.ofBool ((BitVec.ofNat 32 (4095 + k.val - n.val)).slt 0#32) = 0#1
    rw [Cert.Toeplitz.Words.not_slt_zero _ hd]
    rfl
  rw [hneg, select_zero]

/-- The left window's array at an entry is x there. -/
theorem left_array_apply (c : Dev nD) (i : S8192x4096.Idx) :
    V m c main_v17 i = m ((c.tc : Thread nD τ).loc main_arg0) i :=
  congrFun (left_array m c) i

/-- The right window's array at (k, n) is v at the diagonal 4095 + k − n. -/
theorem right_array_apply (c : Dev nD) (k n : Fin 4096) :
    V m c main_v16 (ix2 k n) = m ((c.tc : Thread nD τ).loc main_arg1) (ix1 (Cert.Toeplitz.diag k n)) := by
  have hd : 4095 + k.val - n.val < 8191 := by have := k.isLt; have := n.isLt; omega
  refine (congrFun (right_array m c) (ix2 k n)).trans ?_
  show Host.gather (takeDims 8191 4096 4096 gather_S8191_S4096x4096x1_S4096x4096_n_0_n_n_0_2_1_wf)
      (m ((c.tc : Thread nD τ).loc main_arg1) : FVec Ideal S8191 .f32)
      (broadcastInDim S4096x4096x1 ![0, 1] bcast_S4096x4096_S4096x4096x1_0_1 startWords) (ix2 k n) = _
  rw [gather_take_apply (by decide)]
  refine congrArg _ (congrArg ix1 (Fin.ext ?_))
  show min (broadcastInDim S4096x4096x1 ![0, 1] bcast_S4096x4096_S4096x4096x1_0_1 startWords (takeIdx (ix2 k n))).toInt.toNat (8191 - 1)
    = 4095 + k.val - n.val
  rw [broadcastInDim_apply _ bcast_S4096x4096_S4096x4096x1_0_1 _ (takeIdx (ix2 k n)) (ix2 k n) (fun a => match a with
      | ⟨0, _⟩ => by show k.val = if (4096 : Nat) = 1 then 0 else k.val; rw [if_neg (by decide)]
      | ⟨1, _⟩ => by show n.val = if (4096 : Nat) = 1 then 0 else n.val; rw [if_neg (by decide)]),
    startWords_apply, Cert.Toeplitz.Words.toInt_small _ hd, Int.toNat_natCast]
  omega

end Cert.KernelIdeal.Host

end
-- ==== Proof.Blocks.lean ====
/-
  Where the three windows' blocks sit in their arrays.

  At grid point t the left window holds rows 2048·(t / 32) … of x and the 512 columns of chunk t mod 8; the right window
  holds the 512 rows of that chunk and columns 1024·((t / 8) mod 4) … of the weight matrix; the output window is the
  2048 × 1024 tile at row tile t / 32 and column tile (t / 8) mod 4. The three tile numbers are decided once over the 128
  points; every entry of a block is then the array's entry at tile number × tile size + the entry's own coordinate.
-/
import proofs.«121670_j76081050681596_2_alg».proof.Proof.Gen.KernelIdeal.Frame.Runs
import proofs.«121670_j76081050681596_2_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx Idealize.ShloMosaic.TcCoe
open Idealize.SL.Sem
open Cert.Toeplitz (rowPos colPos chunkPos)

variable {F : FTy → Type} [FloatOps F]
variable (m : (ℓ : Loc nD τ sig) → Buf (Elt F) ℓ)

/-- The tile numbers of the three windows at every grid point. -/
theorem tile_numbers : ∀ t : Fin cfg0.N,
    win0_0.index t (0 : Fin 2) = t.val / 32 % 4 ∧ win0_0.index t (1 : Fin 2) = t.val % 8
    ∧ win0_1.index t (0 : Fin 2) = t.val % 8 ∧ win0_1.index t (1 : Fin 2) = t.val / 8 % 4
    ∧ win0_2.index t (0 : Fin 2) = t.val / 32 % 4 ∧ win0_2.index t (1 : Fin 2) = t.val / 8 % 4 :=
  (by decide +kernel : ∀ t : Fin grid0.N,
    win0_0.index t (0 : Fin 2) = t.val / 32 % 4 ∧ win0_0.index t (1 : Fin 2) = t.val % 8
    ∧ win0_1.index t (0 : Fin 2) = t.val % 8 ∧ win0_1.index t (1 : Fin 2) = t.val / 8 % 4
    ∧ win0_2.index t (0 : Fin 2) = t.val / 32 % 4 ∧ win0_2.index t (1 : Fin 2) = t.val / 8 % 4)

/-- Entry (p, j) of the left window's block at point t. -/
theorem left_block_apply (c : Dev nD) (t : Fin cfg0.N) (p : Fin 2048) (j : Fin 512) :
    iblk m c 0 t (ix2 p j) = V m c main_v17 (ix2 (rowPos t.val p) (chunkPos t.val j)) := by
  obtain ⟨h0, h1, -⟩ := tile_numbers t
  unfold iblk
  rw [View.read_apply]
  show V m c main_v17 _ = V m c main_v17 _
  congr 1
  funext a
  apply Fin.ext
  match a with
  | ⟨0, _⟩ => show win0_0.index t 0 * 2048 + 1 * p.val = 2048 * (t.val / 32 % 4) + p.val; rw [h0]; omega
  | ⟨1, _⟩ => show win0_0.index t 1 * 512 + 1 * j.val = 512 * (t.val % 8) + j.val; rw [h1]; omega

/-- Entry (j, q) of the right window's block at point t. -/
theorem right_block_apply (c : Dev nD) (t : Fin cfg0.N) (j : Fin 512) (q : Fin 1024) :
    iblk m c 1 t (ix2 j q) = V m c main_v16 (ix2 (chunkPos t.val j) (colPos t.val q)) := by
  obtain ⟨-, -, h0, h1, -⟩ := tile_numbers t
  unfold iblk
  rw [View.read_apply]
  show V m c main_v16 _ = V m c main_v16 _
  congr 1
  funext a
  apply Fin.ext
  match a with
  | ⟨0, _⟩ => show win0_1.index t 0 * 512 + 1 * j.val = 512 * (t.val % 8) + j.val; rw [h0]; omega
  | ⟨1, _⟩ => show win0_1.index t 1 * 1024 + 1 * q.val = 1024 * (t.val / 8 % 4) + q.val; rw [h1]; omega

/-- Entry (p, q) of the output window's block of an array `G` at point t. -/
theorem out_block_apply (c : Dev nD) (t : Fin cfg0.N) (G : Buf (Elt F) ((c : Thread nD τ).loc main_v18)) (p : Fin 2048) (q : Fin 1024) :
    ((cfg0.win 2).blk t).view.read (Elt F) G (ix2 p q) = G (ix2 (rowPos t.val p) (colPos t.val q)) := by
  obtain ⟨-, -, -, -, h0, h1⟩ := tile_numbers t
  rw [View.read_apply]
  refine congrArg G (funext fun a => Fin.ext ?_)
  match a with
  | ⟨0, _⟩ => show win0_2.index t 0 * 2048 + 1 * p.val = 2048 * (t.val / 32 % 4) + p.val; rw [h0]; omega
  | ⟨1, _⟩ => show win0_2.index t 1 * 1024 + 1 * q.val = 1024 * (t.val / 8 % 4) + q.val; rw [h1]; omega

end Cert.KernelIdeal.Blocks

end
-- ==== Proof.Fold.lean ====
/-
  The kernel's result array.

  Along the contraction axis the eight points of a run share one output tile. The accumulator is zero before the run's
  first point and each point adds its chunk sum Σ_{j < 512} x[row, 512·k + j] · w[512·k + j, col]; so after the run's last
  point it holds, entry by entry, zero plus the eight chunk sums — which is the result's entry, the contraction axis cut
  into its eight chunks. That last point copies the accumulator into the output tile and the pipeline writes the tile
  back; the sixteen tiles cover the array, so the array ends holding the result.
-/
import proofs.«121670_j76081050681596_2_alg».proof.Proof.Gen.KernelIdeal.Value
import proofs.«121670_j76081050681596_2_alg».proof.Proof.Spec
import proofs.«121670_j76081050681596_2_alg».proof.Proof.Payload
import proofs.«121670_j76081050681596_2_alg».proof.Proof.Pieces
import proofs.«121670_j76081050681596_2_alg».proof.Proof.HostPrefix
import proofs.«121670_j76081050681596_2_alg».proof.Proof.Blocks
import Idealize.ShloMosaic.Lib.Pipeline.Value
import Idealize.ShloMosaic.Lib.ValueIdx

noncomputable section

namespace Cert.KernelIdeal.Acc

open Cert.KernelIdeal Cert.KernelIdeal.Gen Idealize.ShloMosaic Idealize.ShloMosaic.ValueIdx Idealize.ShloMosaic.TcCoe
open Idealize.SL.Sem
open Idealize.ShloMosaic.Pipeline (Dat)
open Cert.Toeplitz (rowPos colPos chunkPos weight matProduct result)
open scoped BigOperators

variable (m : (ℓ : Loc nD τ sig) → Buf (Elt Ideal) ℓ) (ρ : Dev nD → PrngReg)

/-- x as launched on core `c`. -/
abbrev argX (c : Dev nD) : FVec Ideal S8192x4096 .f32 := m ((c.tc : Thread nD τ).loc main_arg0)
/-- v as launched on core `c`. -/
abbrev argV (c : Dev nD) : FVec Ideal S8191 .f32 := m ((c.tc : Thread nD τ).loc main_arg1)

/-- The chunk sum point `n` adds at entry `y` of its output tile. -/
def addend (c : Dev nD) (n : ℕ) (y : S2048x1024.Idx) : EReal :=
  ∑ j : Fin 512, argX m c (ix2 (rowPos n (y 0)) (chunkPos n j))
    * weight (argV m c) (ix2 (chunkPos n j) (colPos n (y 1)))

/-- One step at point `t`: the accumulator's entry plus the point's chunk sum. -/
theorem step_at (c : Dev nD) (t : Fin cfg0.N) (acc : Vec Ideal S2048x1024 .f32) (y : S2048x1024.Idx) :
    k0_pay2 acc (iblk m c 0 t) (iblk m c 1 t) y = acc y + addend m c t.val y := by
  obtain ⟨p, q, rfl⟩ : ∃ (p : Fin 2048) (q : Fin 1024), y = ix2 p q := ⟨y 0, y 1, eq_ix2 y⟩
  refine (Cert.KernelIdeal.Body.step_apply acc (iblk m c 0 t) (iblk m c 1 t) p q).trans ?_
  refine congrArg (acc (ix2 p q) + ·) ?_
  unfold addend
  refine Finset.sum_congr rfl fun j _ => ?_
  rw [Cert.KernelIdeal.Blocks.left_block_apply m c t p j, Cert.KernelIdeal.Blocks.right_block_apply m c t j q,
    Cert.KernelIdeal.Host.left_array_apply, Cert.KernelIdeal.Host.right_array_apply]
  rfl

/-- The accumulator after point `t`: zero plus the chunk sums of the run's points up to `t`. -/
theorem scratch_after (c : Dev nD) (t : Fin cfg0.N) (y : S2048x1024.Idx) :
    (outsAt0 m c t.val t.isLt).2 y
      = 0 + ∑ s ∈ Finset.range (t.val % 8 + 1), addend m c (8 * (t.val / 8) + s) y := by
  rw [Value.soutsAt0_0_eq m c t]
  refine Pipeline.accAt_add_apply (fun n h => Value.scAt0_0 m c n h (VS0_0.read (Elt Ideal) VS0_0.junk)) (Value.scAt0_0 m c)
    (fun _ => 0) (fun n y => addend m c n y) (8 * (t.val / 8)) 7 ?_ ?_ (t.val % 8) (by omega) _ y
  · intro h i
    have h0 : 8 * (t.val / 8) % 8 = 0 := Nat.mul_mod_right 8 _
    have h1 : ¬8 * (t.val / 8) % 8 = 7 := by omega
    unfold Value.scAt0_0
    rw [dif_pos h0, dif_neg h1]
    have e := Cert.KernelIdeal.Pieces.scratch_first (F := Ideal) c (grid0.coords (⟨8 * (t.val / 8), h⟩ : Fin cfg0.N)) (ms0_0 (⟨8 * (t.val / 8), h⟩ : Fin cfg0.N)) (hs0_0 (⟨8 * (t.val / 8), h⟩ : Fin cfg0.N)) (ms0_1 (⟨8 * (t.val / 8), h⟩ : Fin cfg0.N)) (hs0_1 (⟨8 * (t.val / 8), h⟩ : Fin cfg0.N)) (ms0_2 (⟨8 * (t.val / 8), h⟩ : Fin cfg0.N)) (hs0_2 (⟨8 * (t.val / 8), h⟩ : Fin cfg0.N)) scM0_0 (Memref.isWhole_whole _)
      ((hcond0_0 (⟨8 * (t.val / 8), h⟩ : Fin cfg0.N)).mpr h0) (fun hh => h1 ((hcond0_1 (⟨8 * (t.val / 8), h⟩ : Fin cfg0.N)).mp hh))
      (iblk m c 0 (⟨8 * (t.val / 8), h⟩ : Fin cfg0.N)) (iblk m c 1 (⟨8 * (t.val / 8), h⟩ : Fin cfg0.N))
    refine (congrFun e i).trans ?_
    refine (step_at m c (⟨8 * (t.val / 8), h⟩ : Fin cfg0.N) (k0_pay1 (F := Ideal)) i).trans ?_
    rw [Cert.KernelIdeal.Body.zero_block_apply]
  · intro n h acc i hlo hhi
    have h0 : ¬n % 8 = 0 := by omega
    unfold Value.scAt0_0
    rw [dif_neg h0]
    by_cases h1 : n % 8 = 7
    · rw [dif_pos h1]
      have e := Cert.KernelIdeal.Pieces.scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _)
        (fun hh => h0 ((hcond0_0 (⟨n, h⟩ : Fin cfg0.N)).mp hh)) ((hcond0_1 (⟨n, h⟩ : Fin cfg0.N)).mpr h1)
        (iblk m c 0 (⟨n, h⟩ : Fin cfg0.N)) (iblk m c 1 (⟨n, h⟩ : Fin cfg0.N)) acc
      exact (congrFun e i).trans (step_at m c (⟨n, h⟩ : Fin cfg0.N) acc i)
    · rw [dif_neg h1]
      have e := Cert.KernelIdeal.Pieces.scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _)
        (fun hh => h0 ((hcond0_0 (⟨n, h⟩ : Fin cfg0.N)).mp hh)) (fun hh => h1 ((hcond0_1 (⟨n, h⟩ : Fin cfg0.N)).mp hh))
        (iblk m c 0 (⟨n, h⟩ : Fin cfg0.N)) (iblk m c 1 (⟨n, h⟩ : Fin cfg0.N)) acc
      exact (congrFun e i).trans (step_at m c (⟨n, h⟩ : Fin cfg0.N) acc i)

/-- At a run's last point the output tile is a copy of the accumulator. -/
theorem output_is_scratch (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  have e1 := Cert.KernelIdeal.Pieces.output_last (F := Ideal) c (grid0.coords t) (ms0_0 t) (hs0_0 t) (ms0_1 t) (hs0_1 t) (ms0_2 t) (hs0_2 t) scM0_0 (Memref.isWhole_whole _)
    (fun hh => h0 ((hcond0_0 t).mp hh)) ((hcond0_1 t).mpr h7) (iblk m c 0 t) (iblk m c 1 t)
    (outsAt0 m c (t.val - 1) (Nat.lt_of_le_of_lt (Nat.sub_le _ _) t.isLt)).2
  have e2 := Cert.KernelIdeal.Pieces.scratch_last (F := Ideal) c (grid0.coords t) (ms0_0 t) (hs0_0 t) (ms0_1 t) (hs0_1 t) (ms0_2 t) (hs0_2 t) scM0_0 (Memref.isWhole_whole _)
    (fun hh => h0 ((hcond0_0 t).mp hh)) ((hcond0_1 t).mpr h7) (iblk m c 0 t) (iblk m c 1 t)
    (outsAt0 m c (t.val - 1) (Nat.lt_of_le_of_lt (Nat.sub_le _ _) t.isLt)).2
  exact e1.trans e2.symm

/-- What the result array holds in the end. -/
abbrev final (c : Dev nD) : Buf (Elt Ideal) ((c : Thread nD τ).loc main_v18) :=
  result (argX m c) (argV m c)

/-- The tile a run's last point writes back is the result's tile. -/
theorem flushed_eq (c : Dev nD) (t : Fin cfg0.N) (hf : (cfg0.win 2).flush t = true) :
    (dats m 0 c).flushed 2 t = ((cfg0.win 2).blk t).view.read (Elt Ideal) (final m c) := by
  have h7 : t.val % 8 = 7 := (flush0_2 t).mp hf
  rw [Value.flushed2 m c t, output_is_scratch m c t h7]
  funext y
  obtain ⟨p, q, rfl⟩ : ∃ (p : Fin 2048) (q : Fin 1024), y = ix2 p q := ⟨y 0, y 1, eq_ix2 y⟩
  refine Eq.trans ?_ (Cert.KernelIdeal.Blocks.out_block_apply (F := Ideal) c t (final m c) p q).symm
  show (outsAt0 m c t.val t.isLt).2 (ix2 p q) = _
  rw [scratch_after m c t (ix2 p q), h7]
  have hb : 8 * (t.val / 8) % 8 = 0 := Nat.mul_mod_right 8 _
  have er : rowPos t.val p = rowPos (8 * (t.val / 8)) p := Fin.ext (by
    show 2048 * (t.val / 32 % 4) + p.val = 2048 * (8 * (t.val / 8) / 32 % 4) + p.val; omega)
  have ec : colPos t.val q = colPos (8 * (t.val / 8)) q := Fin.ext (by
    show 1024 * (t.val / 8 % 4) + q.val = 1024 * (8 * (t.val / 8) / 8 % 4) + q.val; omega)
  rw [er, ec]
  exact (Cert.Toeplitz.result_by_chunks _ _ (8 * (t.val / 8)) hb p q).symm

end Cert.KernelIdeal.Acc

end
-- ==== Proof.KernelValue.lean ====
/-
  The kernel's run ends with the result array holding the result.

  Entry (r, s) of the array lies in the output tile at row tile r / 2048 and column tile s / 1024; the last point of that
  tile's run — point 32·(r / 2048) + 8·(s / 1024) + 7 — writes the tile back, holding the result's tile. So every entry is
  written with the result's value, and the array ends equal to the result.
-/
import proofs.«121670_j76081050681596_2_alg».proof.Proof.Fold

noncomputable section

namespace Cert.KernelIdeal.Acc

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ) (ρ : Dev nD → PrngReg)

/-- An entry of the array is in point `t`'s output tile iff each coordinate is in the tile's range on its axis. -/
theorem mem_tile (t : Fin cfg0.N) (i : S8192x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v18).slice (win0_2.rect t)).set ↔ _
  rw [View.set_slice_whole, Rect.mem_set_unit]
  exact Iff.rfl

/-- Every entry lies in the tile some run's last point writes back. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 128 := N_0
  have ht : 32 * ((i 0).val / 2048) + 8 * ((i 1).val / 1024) + 7 < cfg0.N := by rw [hN]; omega
  refine ⟨⟨32 * ((i 0).val / 2048) + 8 * ((i 1).val / 1024) + 7, ht⟩, (flush0_2 _).mpr (by
    show (32 * ((i 0).val / 2048) + 8 * ((i 1).val / 1024) + 7) % 8 = 7; omega), ?_⟩
  obtain ⟨-, -, -, -, e0, e1⟩ := Cert.KernelIdeal.Blocks.tile_numbers ⟨32 * ((i 0).val / 2048) + 8 * ((i 1).val / 1024) + 7, ht⟩
  rw [mem_tile]
  intro a
  match a with
  | ⟨0, _⟩ =>
    show win0_2.index _ (0 : Fin 2) * 2048 ≤ (i 0).val ∧ (i 0).val < win0_2.index _ (0 : Fin 2) * 2048 + 2048
    rw [e0]
    show (32 * ((i 0).val / 2048) + 8 * ((i 1).val / 1024) + 7) / 32 % 4 * 2048 ≤ (i 0).val
      ∧ (i 0).val < (32 * ((i 0).val / 2048) + 8 * ((i 1).val / 1024) + 7) / 32 % 4 * 2048 + 2048
    omega
  | ⟨1, _⟩ =>
    show win0_2.index _ (1 : Fin 2) * 1024 ≤ (i 1).val ∧ (i 1).val < win0_2.index _ (1 : Fin 2) * 1024 + 1024
    rw [e1]
    show (32 * ((i 0).val / 2048) + 8 * ((i 1).val / 1024) + 7) / 8 % 4 * 1024 ≤ (i 1).val
      ∧ (i 1).val < (32 * ((i 0).val / 2048) + 8 * ((i 1).val / 1024) + 7) / 8 % 4 * 1024 + 1024
    omega

/-- The result array after the run is the result. -/
theorem final_array (c : Dev nD) : (dats m 0 c).arrAt 2 cfg0.N = final m c :=
  (dats m 0 c).arrAt_eq_of_cover 2 (final m c) (flushed_eq m c) cover

/-- THE KERNEL'S RUN: every weakly fair execution ends with the result array at the result, the arguments unchanged. -/
theorem run : θ_run defs (onTc (τ := τ) (main (F := Ideal))) ⟨m, fun _ => 0, ρ⟩ fun r => ∀ c : Dev nD,
      r.2.mem ((c : Thread nD τ).loc main_v18) = final m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_array m c), (h c).2⟩) (Value.run_blocks m ρ)

end Cert.KernelIdeal.Acc

end
-- ==== Proof.RefSide.lean ====
/-
  The reference computes the same function.

  The reference builds the Toeplitz matrix W row by row: at (i, j) it forms the integer 4095 + (−1)·i + j in 32-bit
  words (nothing wraps: the result is the word of 4095 + j − i, between 0 and 8190), adds 8191 to it if it were negative
  (it never is), and reads v there. Transposed, entry (k, n) is v at the diagonal 4095 + k − n: the kernel's weight matrix.
  The final contraction of x with it over all 4096 positions is the result's defining sum.
-/
import proofs.«121670_j76081050681596_2_alg».proof.Proof.Gen.ReferenceIdeal.Read
import proofs.«121670_j76081050681596_2_alg».proof.Proof.Spec
import proofs.«121670_j76081050681596_2_alg».proof.Proof.Words
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Toeplitz (diag weight matProduct result)
open scoped BigOperators

/-- The word computed as (4095 + (−1)·i) + j is the word of the number 4095 + j − i. -/
theorem sum_word (i j : ℕ) (hi : i < 4096) (hj : j < 4096) :
    (4095#32 + 4294967295#32 * BitVec.ofNat 32 i) + BitVec.ofNat 32 j = BitVec.ofNat 32 (4095 + j - i) := by
  apply BitVec.eq_of_toNat_eq
  rw [BitVec.toNat_add, BitVec.toNat_add, BitVec.toNat_mul, BitVec.toNat_ofNat, BitVec.toNat_ofNat, BitVec.toNat_ofNat,
    BitVec.toNat_ofNat, BitVec.toNat_ofNat]
  norm_num
  omega

/-- The integer the reference forms at (i, j). -/
theorem sum_at (i j : Fin 4096) : val_main_v10 (F := Ideal) (ix2 i j) = BitVec.ofNat 32 (4095 + j.val - i.val) := by
  rw [val_main_v10_apply, val_main_v8_apply, val_main_v6_apply, val_main_v5_apply, val_main_v4_apply, val_main_c_0_apply,
    val_main_v3_apply, val_main_v2_apply, val_main_c_apply, val_main_v1_apply, val_main_v9_apply, val_main_v7_apply,
    val_main_v0_apply]
  exact sum_word i.val j.val i.isLt j.isLt

/-- It is never negative, so the position read is the integer itself. -/
theorem start_at (i j : Fin 4096) : val_main_v15 (F := Ideal) (ix2 i j) = BitVec.ofNat 32 (4095 + j.val - i.val) := by
  have hd : 4095 + j.val - i.val < 8191 := by have := i.isLt; have := j.isLt; omega
  rw [val_main_v15_apply, val_main_v12_apply, sum_at, val_main_v11_apply, val_main_c_1_apply]
  have hneg : IntOp.cmpi .slt (BitVec.ofNat 32 (4095 + j.val - i.val)) 0#32 = 0#1 := by
    show BitVec.ofBool ((BitVec.ofNat 32 (4095 + j.val - i.val)).slt 0#32) = 0#1
    rw [Cert.Toeplitz.Words.not_slt_zero _ hd]
    rfl
  rw [hneg, select_zero]

/-- Entry (i, j) of the Toeplitz matrix is v at the diagonal 4095 + j − i. -/
theorem toeplitz_entry (v : (⟨S8191, .f32⟩ : BufTy).Contents (Elt Ideal)) (i j : Fin 4096) :
    val_main_v17 (F := Ideal) v (ix2 i j) = v (ix1 (diag j i)) := by
  have hd : 4095 + j.val - i.val < 8191 := by have := i.isLt; have := j.isLt; omega
  show Host.gather (takeDims 8191 4096 4096 gather_S8191_S4096x4096x1_S4096x4096_n_0_n_n_0_2_1_wf) v
      (val_main_v16 (F := Ideal)) (ix2 i j) = _
  rw [gather_take_apply (by decide)]
  refine congrArg _ (congrArg ix1 (Fin.ext ?_))
  show min (val_main_v16 (F := Ideal) (takeIdx (ix2 i j))).toInt.toNat (8191 - 1) = 4095 + j.val - i.val
  have e : idx_main_v16 (takeIdx (ix2 i j)) = ix2 i j := funext fun a => Fin.ext (by
    match a with
    | ⟨0, _⟩ => rfl
    | ⟨1, _⟩ => rfl)
  rw [val_main_v16_apply, e, start_at, Cert.Toeplitz.Words.toInt_small _ hd, Int.toNat_natCast]
  omega

/-- Transposed, it is the weight matrix. -/
theorem weight_entry (v : (⟨S8191, .f32⟩ : BufTy).Contents (Elt Ideal)) (k n : Fin 4096) :
    val_main_v18 (F := Ideal) v (ix2 k n) = weight v (ix2 k n) := by
  have e : idx_main_v18 (ix2 k n) = ix2 n k := funext fun a => Fin.ext (by
    match a with
    | ⟨0, _⟩ => rfl
    | ⟨1, _⟩ => rfl)
  rw [val_main_v18_apply, e, toeplitz_entry]
  rfl

/-- THE REFERENCE'S VALUE is the result. -/
theorem value_eq (x : (⟨S8192x4096, .f32⟩ : BufTy).Contents (Elt Ideal)) (v : (⟨S8191, .f32⟩ : BufTy).Contents (Elt Ideal)) :
    val_main_v19 (F := Ideal) x v = result x v := by
  funext i
  obtain ⟨b, n, rfl⟩ : ∃ (b : Fin 8192) (n : Fin 4096), i = ix2 b n := ⟨i 0, i 1, eq_ix2 i⟩
  rw [val_main_v19_apply]
  show _ = ∑ k : Fin 4096, x (ix2 b k) * weight v (ix2 k n)
  refine Finset.sum_congr rfl fun k _ => ?_
  have el : lidx_main_v19 (ix2 b n) k = ix2 b k := funext fun a => Fin.ext (by
    match a with
    | ⟨0, _⟩ => rfl
    | ⟨1, _⟩ => rfl)
  have er : ridx_main_v19 (ix2 b n) k = ix2 k n := funext fun a => Fin.ext (by
    match a with
    | ⟨0, _⟩ => rfl
    | ⟨1, _⟩ => rfl)
  rw [el, er, weight_entry v k n]

end Cert.ReferenceIdeal.RefValue

end
-- ==== Proof.lean ====
/-
  A Toeplitz linear layer: x (8192 × 4096) times the transposed Toeplitz matrix of v (length 8191),
      out[b, n] = Σ_{k < 4096} x[b, k] · v[4095 + k − n].

  The kernel builds the 4096 × 4096 weight matrix on the host (v read at the integer 4095 + k − n, formed in 32-bit words
  that never wrap and are never negative), narrows both operands — the identity on the extended reals — and multiplies
  tile by tile: each 2048 × 1024 output tile is the sum, over the eight 512-wide chunks of the contraction axis, of a
  2048 × 512 by 512 × 1024 product added onto an accumulator that starts at zero. The reference builds the same matrix
  from the integer 4095 + (−1)·i + j, transposes it, and contracts all 4096 positions at once.

  The two agree because a sum over 4096 positions is the sum of its eight consecutive chunks: addition on the extended
  reals is commutative and associative, so nothing about finiteness of the inputs is used.

  Proof/Spec.lean states the result and that law; Proof/Payload.lean reads one accumulation step at an entry;
  Proof/Pieces.lean reads what each control case of the body leaves; Proof/Words.lean, Proof/HostPrefix.lean and
  Proof/Blocks.lean read the operands' tiles; Proof/Fold.lean and Proof/KernelValue.lean sum the run and cover the array;
  Proof/RefSide.lean reads the reference. The kernel's idealization rewrote nothing, so there is nothing to preserve.
-/
import proofs.«121670_j76081050681596_2_alg».proof.Defs
import proofs.«121670_j76081050681596_2_alg».proof.Proof.Gen.Kernel
import proofs.«121670_j76081050681596_2_alg».proof.Proof.Gen.Kernel.Skeleton
import proofs.«121670_j76081050681596_2_alg».proof.Proof.Gen.Kernel.Launch
import proofs.«121670_j76081050681596_2_alg».proof.Proof.Gen.Kernel.Points
import proofs.«121670_j76081050681596_2_alg».proof.Proof.Gen.Kernel.Frame
import proofs.«121670_j76081050681596_2_alg».proof.Proof.Gen.KernelIdeal
import proofs.«121670_j76081050681596_2_alg».proof.Proof.Gen.KernelIdeal.Skeleton
import proofs.«121670_j76081050681596_2_alg».proof.Proof.Gen.KernelIdeal.Launch
import proofs.«121670_j76081050681596_2_alg».proof.Proof.Gen.KernelIdeal.Points
import proofs.«121670_j76081050681596_2_alg».proof.Proof.Gen.KernelIdeal.Frame
import proofs.«121670_j76081050681596_2_alg».proof.Proof.Gen.ReferenceIdeal
import proofs.«121670_j76081050681596_2_alg».proof.Proof.Gen.Pre_finite_inputs
import proofs.«121670_j76081050681596_2_alg».proof.Proof.Gen.KernelIdeal.Value
import proofs.«121670_j76081050681596_2_alg».proof.Proof.Gen.ReferenceIdeal.Run
import proofs.«121670_j76081050681596_2_alg».proof.Proof.Gen.ReferenceIdeal.Read
import proofs.«121670_j76081050681596_2_alg».proof.Proof.KernelValue
import proofs.«121670_j76081050681596_2_alg».proof.Proof.RefSide
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments alone: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at x times the transposed Toeplitz matrix of v, of arguments that agree. -/
theorem algebraic : Cert.algebraic_KernelIdeal_ReferenceIdeal := by
  intro m ρ m' ρ' _ hagree
  refine ⟨fun c => Cert.KernelIdeal.Acc.final m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v19_eq _ _).trans (Cert.ReferenceIdeal.RefValue.value_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
